-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  main_v73

def fn_part3 {F : FTy → Type} [FloatOps F] (main_arg11 : FVec F S2048x2048 .f32) (main_arg12 : FVec F S2048x2048 .f32) (main_arg13 : FVec F S2048 .f32) (main_arg14 : FVec F S2048x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_arg14 : FVec F S2048x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_v48 main_v49 main_v50

def fn_part1 {F : FTy → Type} [FloatOps F] (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_arg14 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_arg14 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x256 : Shape := ⟨2, ![512, 256]⟩
abbrev S256x2048 : Shape := ⟨2, ![256, 2048]⟩
abbrev S1x256 : Shape := ⟨2, ![1, 256]⟩

abbrev nBuf : Space → Nat
  | .hbm => 31
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S4096x2048, .bf16⟩
  | .hbm, ⟨16, _⟩ => ⟨S4096x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S256x2048, .bf16⟩
  | .local _ .vmem, ⟨8, _⟩ => ⟨S1x256, .f32⟩
  | .local _ .vmem, ⟨9, _⟩ => ⟨S1x256, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1x256, .f32⟩
  | .local _ .vmem, ⟨15, _⟩ => ⟨S1x256, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S1x256, .f32⟩
  | .local _ .vmem, ⟨21, _⟩ => ⟨S1x256, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S1x256, .f32⟩
  | .local _ .vmem, ⟨27, _⟩ => ⟨S1x256, .f32⟩
  | .local _ .vmem, ⟨28, _⟩ => ⟨S256x2048, .bf16⟩
  | .local _ .vmem, ⟨29, _⟩ => ⟨S256x2048, .bf16⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S2048x2048.size a
  hwx0_11 : ∀ i : grid0.Coords, EltTy.bits .bf16 = 32 ∨ (Rect.block (s := S2048x2048) S256x2048.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S2048x2048.size a
  hwx0_12 : ∀ i : grid0.Coords, EltTy.bits .bf16 = 32 ∨ (Rect.block (s := S2048x2048) S256x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x2048.size a ≤ S2048x2048.size a
  hwx0_14 : ∀ i : grid0.Coords, EltTy.bits .bf16 = 32 ∨ (Rect.block (s := S2048x2048) S256x2048.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8) S256x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5) S256x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9) S256x2048.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S2048x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S2048x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S2048x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S2048x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S2048x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S2048x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S2048x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S2048x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_cst : Ref sig .tc := ⟨.hbm, 34, rfl⟩
abbrev main_call1_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_cst : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LstmSpec.lean ====
/-
  The rectifier-gated LSTM cell as functions on the extended reals.

  For activations `x`, `h` (one row per sample), a cell state `c`, and per gate a pair of weight matrices and a bias,
  a gate's pre-activation at sample `p` and unit `q` is
      x[p,·]·wx[q,·] + h[p,·]·wh[q,·] + b[q],
  the new cell state is  max(f,0)·c + max(i,0)·tanh(g)  and the new hidden state  max(o,0)·tanh(c_new),
  with `f`, `i`, `g`, `o` the forget, input, candidate and output pre-activations.

  Everything is stated for matrices of ANY extents `M × K`, `N × K`, `M × N`: the same definition reads a tile of
  the batch against a tile of the units and the whole arrays, and an entry depends only on ONE row of each
  activation, ONE row of each weight matrix and ONE bias entry — which is what lets a tile's value be identified
  with the whole array's value at the tile's position (`cellAt_congr`, `hidAt_congr`).

  The one algebraic law used between two spellings of a pre-activation is that a sum of three extended reals may be
  regrouped and reordered (`gatePre_bias_second`): commutativity and associativity of `+` hold on all of `[-∞, +∞]`,
  so no finiteness is needed anywhere.
-/
import Idealize.ShloMosaic.Lib.ValueIdx
import Idealize.ShloMosaic.PureOps.Ideal.Laws

noncomputable section

open scoped BigOperators

namespace Cert.Lstm

open Idealize.ShloMosaic Idealize.ShloMosaic.ValueIdx

/-- The zero the rectifier compares with: the all-zero f32 word read as an extended real. It is the same word on
    both sides of every equation here and is never evaluated. -/
abbrev zeroWord : EReal := Ideal.ofBits .f32 0x00000000#32

/-- Entry `(p, q)` of `x · wᵀ`: row `p` of `x` against row `q` of `w`. -/
def dotRows {M N K : Nat} (x : (⟨2, ![M, K]⟩ : Shape).Idx → EReal) (w : (⟨2, ![N, K]⟩ : Shape).Idx → EReal)
    (p : Fin M) (q : Fin N) : EReal :=
  ∑ k : Fin K, x (ix2 p k) * w (ix2 q k)

/-- One gate's parameters: the weights applied to `x`, the bias (one entry per unit), the weights applied to `h`. -/
structure Gate (N K : Nat) where
  wx : (⟨2, ![N, K]⟩ : Shape).Idx → EReal
  b : Fin N → EReal
  wh : (⟨2, ![N, K]⟩ : Shape).Idx → EReal

/-- A gate's pre-activation at sample `p`, unit `q`. -/
def gatePre {M N K : Nat} (x h : (⟨2, ![M, K]⟩ : Shape).Idx → EReal) (g : Gate N K) (p : Fin M) (q : Fin N) : EReal :=
  dotRows x g.wx p q + dotRows h g.wh p q + g.b q

/-- The same three terms with the bias added second: equal, by regrouping a sum. -/
theorem gatePre_bias_second {M N K : Nat} (x h : (⟨2, ![M, K]⟩ : Shape).Idx → EReal) (g : Gate N K) (p : Fin M) (q : Fin N) :
    dotRows x g.wx p q + g.b q + dotRows h g.wh p q = gatePre x h g p q :=
  add_right_comm _ _ _

/-- The new cell state at `(p, q)`. -/
def cellAt {M N K : Nat} (x h : (⟨2, ![M, K]⟩ : Shape).Idx → EReal) (c : (⟨2, ![M, N]⟩ : Shape).Idx → EReal)
    (gf gi gc : Gate N K) (p : Fin M) (q : Fin N) : EReal :=
  max (gatePre x h gf p q) zeroWord * c (ix2 p q) + max (gatePre x h gi p q) zeroWord * Ideal.tanh (gatePre x h gc p q)

/-- The new hidden state at `(p, q)`. -/
def hidAt {M N K : Nat} (x h : (⟨2, ![M, K]⟩ : Shape).Idx → EReal) (c : (⟨2, ![M, N]⟩ : Shape).Idx → EReal)
    (gf gi gc go : Gate N K) (p : Fin M) (q : Fin N) : EReal :=
  max (gatePre x h go p q) zeroWord * Ideal.tanh (cellAt x h c gf gi gc p q)

/-! ## An entry depends on one row of each operand -/

/-- Two gates agree at units `q`, `q'`: the same weight rows and the same bias entry. -/
def Gate.AgreeAt {N N' K : Nat} (g : Gate N K) (g' : Gate N' K) (q : Fin N) (q' : Fin N') : Prop :=
  (∀ k : Fin K, g.wx (ix2 q k) = g'.wx (ix2 q' k)) ∧ g.b q = g'.b q' ∧ (∀ k : Fin K, g.wh (ix2 q k) = g'.wh (ix2 q' k))

theorem dotRows_congr {M M' N N' K : Nat} {x : (⟨2, ![M, K]⟩ : Shape).Idx → EReal} {x' : (⟨2, ![M', K]⟩ : Shape).Idx → EReal}
    {w : (⟨2, ![N, K]⟩ : Shape).Idx → EReal} {w' : (⟨2, ![N', K]⟩ : Shape).Idx → EReal}
    {p : Fin M} {p' : Fin M'} {q : Fin N} {q' : Fin N'}
    (hx : ∀ k : Fin K, x (ix2 p k) = x' (ix2 p' k)) (hw : ∀ k : Fin K, w (ix2 q k) = w' (ix2 q' k)) :
    dotRows x w p q = dotRows x' w' p' q' :=
  Finset.sum_congr rfl fun k _ => by rw [hx k, hw k]

theorem gatePre_congr {M M' N N' K : Nat} {x h : (⟨2, ![M, K]⟩ : Shape).Idx → EReal} {x' h' : (⟨2, ![M', K]⟩ : Shape).Idx → EReal}
    {g : Gate N K} {g' : Gate N' K} {p : Fin M} {p' : Fin M'} {q : Fin N} {q' : Fin N'}
    (hx : ∀ k : Fin K, x (ix2 p k) = x' (ix2 p' k)) (hh : ∀ k : Fin K, h (ix2 p k) = h' (ix2 p' k))
    (hg : g.AgreeAt g' q q') :
    gatePre x h g p q = gatePre x' h' g' p' q' := by
  unfold gatePre
  rw [dotRows_congr hx hg.1, dotRows_congr hh hg.2.2, hg.2.1]

theorem cellAt_congr {M M' N N' K : Nat} {x h : (⟨2, ![M, K]⟩ : Shape).Idx → EReal} {x' h' : (⟨2, ![M', K]⟩ : Shape).Idx → EReal}
    {c : (⟨2, ![M, N]⟩ : Shape).Idx → EReal} {c' : (⟨2, ![M', N']⟩ : Shape).Idx → EReal}
    {gf gi gc : Gate N K} {gf' gi' gc' : Gate N' K} {p : Fin M} {p' : Fin M'} {q : Fin N} {q' : Fin N'}
    (hx : ∀ k : Fin K, x (ix2 p k) = x' (ix2 p' k)) (hh : ∀ k : Fin K, h (ix2 p k) = h' (ix2 p' k))
    (hc : c (ix2 p q) = c' (ix2 p' q'))
    (hf : gf.AgreeAt gf' q q') (hi : gi.AgreeAt gi' q q') (hcand : gc.AgreeAt gc' q q') :
    cellAt x h c gf gi gc p q = cellAt x' h' c' gf' gi' gc' p' q' := by
  unfold cellAt
  rw [gatePre_congr hx hh hf, gatePre_congr hx hh hi, gatePre_congr hx hh hcand, hc]

theorem hidAt_congr {M M' N N' K : Nat} {x h : (⟨2, ![M, K]⟩ : Shape).Idx → EReal} {x' h' : (⟨2, ![M', K]⟩ : Shape).Idx → EReal}
    {c : (⟨2, ![M, N]⟩ : Shape).Idx → EReal} {c' : (⟨2, ![M', N']⟩ : Shape).Idx → EReal}
    {gf gi gc go : Gate N K} {gf' gi' gc' go' : Gate N' K} {p : Fin M} {p' : Fin M'} {q : Fin N} {q' : Fin N'}
    (hx : ∀ k : Fin K, x (ix2 p k) = x' (ix2 p' k)) (hh : ∀ k : Fin K, h (ix2 p k) = h' (ix2 p' k))
    (hc : c (ix2 p q) = c' (ix2 p' q'))
    (hf : gf.AgreeAt gf' q q') (hi : gi.AgreeAt gi' q q') (hcand : gc.AgreeAt gc' q q') (ho : go.AgreeAt go' q q') :
    hidAt x h c gf gi gc go p q = hidAt x' h' c' gf' gi' gc' go' p' q' := by
  unfold hidAt
  rw [gatePre_congr hx hh ho, cellAt_congr hx hh hc hf hi hcand]

/-! ## The whole arrays: 4096 samples, 2048 inputs, 2048 units -/

/-- An activation or state array. -/
abbrev Act : Type := (⟨2, ![4096, 2048]⟩ : Shape).Idx → EReal
/-- A weight matrix, one row per unit. -/
abbrev Wgt : Type := (⟨2, ![2048, 2048]⟩ : Shape).Idx → EReal
/-- A bias vector. -/
abbrev Bias : Type := (⟨1, ![2048]⟩ : Shape).Idx → EReal

/-- A gate of the whole layer from its two weight matrices and its bias vector. -/
def gateOf (wx : Wgt) (b : Bias) (wh : Wgt) : Gate 2048 2048 := ⟨wx, fun q => b (ix1 q), wh⟩

/-- The new cell state, as an array. -/
def cellNew (x h c : Act) (wfx : Wgt) (bf : Bias) (wfh wix : Wgt) (bi : Bias) (wih wcx : Wgt) (bc : Bias) (wch : Wgt) : Act :=
  fun j => cellAt (M := 4096) (N := 2048) (K := 2048) x h c (gateOf wfx bf wfh) (gateOf wix bi wih) (gateOf wcx bc wch) (j 0) (j 1)

/-- The new hidden state, as an array. -/
def hidNew (x h c : Act) (wfx : Wgt) (bf : Bias) (wfh wix : Wgt) (bi : Bias) (wih wcx : Wgt) (bc : Bias) (wch wox : Wgt) (bo : Bias)
    (woh : Wgt) : Act :=
  fun j => hidAt (M := 4096) (N := 2048) (K := 2048) x h c (gateOf wfx bf wfh) (gateOf wix bi wih) (gateOf wcx bc wch)
    (gateOf wox bo woh) (j 0) (j 1)

theorem cellNew_ix2 (x h c : Act) (wfx : Wgt) (bf : Bias) (wfh wix : Wgt) (bi : Bias) (wih wcx : Wgt) (bc : Bias) (wch : Wgt)
    (p : Fin 4096) (q : Fin 2048) :
    cellNew x h c wfx bf wfh wix bi wih wcx bc wch (ix2 p q)
      = cellAt x h c (gateOf wfx bf wfh) (gateOf wix bi wih) (gateOf wcx bc wch) p q := rfl

theorem hidNew_ix2 (x h c : Act) (wfx : Wgt) (bf : Bias) (wfh wix : Wgt) (bi : Bias) (wih wcx : Wgt) (bc : Bias) (wch wox : Wgt)
    (bo : Bias) (woh : Wgt) (p : Fin 4096) (q : Fin 2048) :
    hidNew x h c wfx bf wfh wix bi wih wcx bc wch wox bo woh (ix2 p q)
      = hidAt x h c (gateOf wfx bf wfh) (gateOf wix bi wih) (gateOf wcx bc wch) (gateOf wox bo woh) p q := rfl

end Cert.Lstm

end
-- ==== Proof.KernelBlocks.lean ====
/-
  The blocks the kernel is handed, read back as entries of the arguments.

  The grid is 8 × 8: point `(i, j)` takes samples `512 i … 512 i + 511` and units `256 j … 256 j + 255`.  It is handed rows
  `512 i …` of `x` and `h` (all inputs), the `(i, j)` tile of `c`, rows `256 j …` of each weight matrix, and entries
  `256 j …` of each bias.  The arrays the region reads are the arguments themselves: the conversions to the narrower float
  format before the region are the identity on extended reals, and a bias vector reshaped to one row keeps its entries in
  order.  A block's coordinate along an axis is always the block's index on that axis times the block's extent plus the
  coordinate inside the block; the index maps are decided once over the 64 grid points.
-/
import proofs.«119314_j16071767621782_2_alg».proof.Proof.Gen.KernelIdeal.Value
import proofs.«119314_j16071767621782_2_alg».proof.Proof.LstmSpec
import Idealize.ShloMosaic.Lib.StableHlo.Run
import Idealize.ShloMosaic.Lib.Pipeline.Value
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the region finds: the arguments, the narrowing conversions being the identity -/

theorem V_main_v0 (c : Dev nD) : (V m c main_v0 : S4096x2048.Idx → EReal) = m ((c : Thread nD τ).loc main_arg0) := by
  dsimp only [Gen.V, Gen.hostOps0]; after_results; rfl

theorem V_main_v1 (c : Dev nD) : (V m c main_v1 : S4096x2048.Idx → EReal) = m ((c : Thread nD τ).loc main_arg1) := by
  dsimp only [Gen.V, Gen.hostOps0]; after_results; rfl

theorem V_main_v2 (c : Dev nD) : (V m c main_v2 : S2048x2048.Idx → EReal) = m ((c : Thread nD τ).loc main_arg3) := by
  dsimp only [Gen.V, Gen.hostOps0]; after_results; rfl

theorem V_main_v6 (c : Dev nD) : (V m c main_v6 : S2048x2048.Idx → EReal) = m ((c : Thread nD τ).loc main_arg5) := by
  dsimp only [Gen.V, Gen.hostOps0]; after_results; rfl

theorem V_main_v3 (c : Dev nD) : (V m c main_v3 : S2048x2048.Idx → EReal) = m ((c : Thread nD τ).loc main_arg6) := by
  dsimp only [Gen.V, Gen.hostOps0]; after_results; rfl

theorem V_main_v7 (c : Dev nD) : (V m c main_v7 : S2048x2048.Idx → EReal) = m ((c : Thread nD τ).loc main_arg8) := by
  dsimp only [Gen.V, Gen.hostOps0]; after_results; rfl

theorem V_main_v4 (c : Dev nD) : (V m c main_v4 : S2048x2048.Idx → EReal) = m ((c : Thread nD τ).loc main_arg9) := by
  dsimp only [Gen.V, Gen.hostOps0]; after_results; rfl

theorem V_main_v8 (c : Dev nD) : (V m c main_v8 : S2048x2048.Idx → EReal) = m ((c : Thread nD τ).loc main_arg11) := by
  dsimp only [Gen.V, Gen.hostOps0]; after_results; rfl

theorem V_main_v5 (c : Dev nD) : (V m c main_v5 : S2048x2048.Idx → EReal) = m ((c : Thread nD τ).loc main_arg12) := by
  dsimp only [Gen.V, Gen.hostOps0]; after_results; rfl

theorem V_main_v9 (c : Dev nD) : (V m c main_v9 : S2048x2048.Idx → EReal) = m ((c : Thread nD τ).loc main_arg14) := by
  dsimp only [Gen.V, Gen.hostOps0]; after_results; rfl

theorem V_main_v10 (c : Dev nD) : (V m c main_v10 : S1x2048.Idx → EReal)
    = shapeCast S1x2048 (m ((c : Thread nD τ).loc main_arg4) : S2048.Idx → EReal) shapeCasts_S2048_S1x2048 := by
  dsimp only [Gen.V, Gen.hostOps0]; after_results; rfl

theorem V_main_v11 (c : Dev nD) : (V m c main_v11 : S1x2048.Idx → EReal)
    = shapeCast S1x2048 (m ((c : Thread nD τ).loc main_arg7) : S2048.Idx → EReal) shapeCasts_S2048_S1x2048 := by
  dsimp only [Gen.V, Gen.hostOps0]; after_results; rfl

theorem V_main_v12 (c : Dev nD) : (V m c main_v12 : S1x2048.Idx → EReal)
    = shapeCast S1x2048 (m ((c : Thread nD τ).loc main_arg10) : S2048.Idx → EReal) shapeCasts_S2048_S1x2048 := by
  dsimp only [Gen.V, Gen.hostOps0]; after_results; rfl

theorem V_main_v13 (c : Dev nD) : (V m c main_v13 : S1x2048.Idx → EReal)
    = shapeCast S1x2048 (m ((c : Thread nD τ).loc main_arg13) : S2048.Idx → EReal) shapeCasts_S2048_S1x2048 := by
  dsimp only [Gen.V, Gen.hostOps0]; after_results; rfl

/-! ## The index maps over the 64 grid points

Written against the tile position of the second result's window: the first result's window and the `c` window sit at the
same tile, the activation windows at the tile's row of samples, the weight windows at the tile's row of units, the bias
windows at the tile's units. -/

theorem hz : (![0, 0] : Fin 2 → Nat) = fun _ => 0 := funext fun a => by fin_cases a <;> rfl

theorem idx_tile : ∀ t : Fin cfg0.N,
      win0_0.index t (0 : Fin 2) = win0_16.index t (0 : Fin 2) ∧ win0_0.index t (1 : Fin 2) = 0
    ∧ win0_1.index t (0 : Fin 2) = win0_16.index t (0 : Fin 2) ∧ win0_1.index t (1 : Fin 2) = 0
    ∧ win0_2.index t (0 : Fin 2) = win0_16.index t (0 : Fin 2) ∧ win0_2.index t (1 : Fin 2) = win0_16.index t (1 : Fin 2)
    ∧ win0_15.index t (0 : Fin 2) = win0_16.index t (0 : Fin 2) ∧ win0_15.index t (1 : Fin 2) = win0_16.index t (1 : Fin 2)
    ∧ win0_16.index t (0 : Fin 2) ≤ 7 ∧ win0_16.index t (1 : Fin 2) ≤ 7 :=
  (by decide +kernel : ∀ t : Fin grid0.N, _)

theorem idx_wgt : ∀ t : Fin cfg0.N,
      win0_3.index t (0 : Fin 2) = win0_16.index t (1 : Fin 2) ∧ win0_3.index t (1 : Fin 2) = 0
    ∧ win0_5.index t (0 : Fin 2) = win0_16.index t (1 : Fin 2) ∧ win0_5.index t (1 : Fin 2) = 0
    ∧ win0_6.index t (0 : Fin 2) = win0_16.index t (1 : Fin 2) ∧ win0_6.index t (1 : Fin 2) = 0
    ∧ win0_8.index t (0 : Fin 2) = win0_16.index t (1 : Fin 2) ∧ win0_8.index t (1 : Fin 2) = 0
    ∧ win0_9.index t (0 : Fin 2) = win0_16.index t (1 : Fin 2) ∧ win0_9.index t (1 : Fin 2) = 0
    ∧ win0_11.index t (0 : Fin 2) = win0_16.index t (1 : Fin 2) ∧ win0_11.index t (1 : Fin 2) = 0
    ∧ win0_12.index t (0 : Fin 2) = win0_16.index t (1 : Fin 2) ∧ win0_12.index t (1 : Fin 2) = 0
    ∧ win0_14.index t (0 : Fin 2) = win0_16.index t (1 : Fin 2) ∧ win0_14.index t (1 : Fin 2) = 0 :=
  (by decide +kernel : ∀ t : Fin grid0.N, _)

theorem idx_bias : ∀ t : Fin cfg0.N,
      win0_4.index t (0 : Fin 2) = 0 ∧ win0_4.index t (1 : Fin 2) = win0_16.index t (1 : Fin 2)
    ∧ win0_7.index t (0 : Fin 2) = 0 ∧ win0_7.index t (1 : Fin 2) = win0_16.index t (1 : Fin 2)
    ∧ win0_10.index t (0 : Fin 2) = 0 ∧ win0_10.index t (1 : Fin 2) = win0_16.index t (1 : Fin 2)
    ∧ win0_13.index t (0 : Fin 2) = 0 ∧ win0_13.index t (1 : Fin 2) = win0_16.index t (1 : Fin 2) :=
  (by decide +kernel : ∀ t : Fin grid0.N, _)

/-- Every tile position is some grid point's. -/
theorem idx_onto : ∀ (q0 q1 : Fin 8), ∃ t : Fin cfg0.N, win0_16.index t = ![q0.val, q1.val] :=
  (by decide +kernel : ∀ (q0 q1 : Fin 8), ∃ t : Fin grid0.N, win0_16.index t = ![q0.val, q1.val])

/-! ## Each input block, read at an entry, is the argument at the tile's position -/

/-- Row `r` of the `x` block is row `512 i + r` of the argument. -/
theorem blk_0 (c : Dev nD) (t : Fin cfg0.N) (r : Fin 512) (k : Fin 2048) (P : Fin 4096)
    (hP : P.val = win0_16.index t (0 : Fin 2) * 512 + r.val) :
    (iblk m c 0 t : S512x2048.Idx → EReal) (ix2 r k) = (m ((c : Thread nD τ).loc main_arg0) : S4096x2048.Idx → EReal) (ix2 P k) := by
  obtain ⟨a0, a1, b0, b1, -⟩ := idx_tile t
  show (V m c main_v0 : S4096x2048.Idx → EReal) (((cfg0.win 0).blk t).view.emb (ix2 r k)) = _
  rw [V_main_v0]
  refine congrArg _ (funext fun a => Fin.ext ?_)
  match a with
  | ⟨0, _⟩ => show win0_0.index t (0 : Fin 2) * 512 + 1 * r.val = P.val; omega
  | ⟨1, _⟩ => show win0_0.index t (1 : Fin 2) * 2048 + 1 * k.val = k.val; omega

/-- Row `r` of the `h` block is row `512 i + r` of the argument. -/
theorem blk_1 (c : Dev nD) (t : Fin cfg0.N) (r : Fin 512) (k : Fin 2048) (P : Fin 4096)
    (hP : P.val = win0_16.index t (0 : Fin 2) * 512 + r.val) :
    (iblk m c 1 t : S512x2048.Idx → EReal) (ix2 r k) = (m ((c : Thread nD τ).loc main_arg1) : S4096x2048.Idx → EReal) (ix2 P k) := by
  obtain ⟨a0, a1, b0, b1, -⟩ := idx_tile t
  show (V m c main_v1 : S4096x2048.Idx → EReal) (((cfg0.win 1).blk t).view.emb (ix2 r k)) = _
  rw [V_main_v1]
  refine congrArg _ (funext fun a => Fin.ext ?_)
  match a with
  | ⟨0, _⟩ => show win0_1.index t (0 : Fin 2) * 512 + 1 * r.val = P.val; omega
  | ⟨1, _⟩ => show win0_1.index t (1 : Fin 2) * 2048 + 1 * k.val = k.val; omega

/-- Entry `(r, s)` of the `c` block is entry `(512 i + r, 256 j + s)` of the argument. -/
theorem blk_2 (c : Dev nD) (t : Fin cfg0.N) (r : Fin 512) (s : Fin 256) (P : Fin 4096) (Q : Fin 2048)
    (hP : P.val = win0_16.index t (0 : Fin 2) * 512 + r.val) (hQ : Q.val = win0_16.index t (1 : Fin 2) * 256 + s.val) :
    (iblk m c 2 t : S512x256.Idx → EReal) (ix2 r s) = (m ((c : Thread nD τ).loc main_arg2) : S4096x2048.Idx → EReal) (ix2 P Q) := by
  obtain ⟨-, -, -, -, c0, c1, -⟩ := idx_tile t
  show (V m c main_arg2 : S4096x2048.Idx → EReal) (((cfg0.win 2).blk t).view.emb (ix2 r s)) = _
  rw [V_main_arg2]
  refine congrArg _ (funext fun a => Fin.ext ?_)
  match a with
  | ⟨0, _⟩ => show win0_2.index t (0 : Fin 2) * 512 + 1 * r.val = P.val; omega
  | ⟨1, _⟩ => show win0_2.index t (1 : Fin 2) * 256 + 1 * s.val = Q.val; omega

/-- Row `s` of window 3's weight block is row `256 j + s` of the argument. -/
theorem blk_3 (c : Dev nD) (t : Fin cfg0.N) (s : Fin 256) (k : Fin 2048) (Q : Fin 2048)
    (hQ : Q.val = win0_16.index t (1 : Fin 2) * 256 + s.val) :
    (iblk m c 3 t : S256x2048.Idx → EReal) (ix2 s k) = (m ((c : Thread nD τ).loc main_arg3) : S2048x2048.Idx → EReal) (ix2 Q k) := by
  obtain ⟨e0, e1, -, -, -, -, -, -, -, -, -, -, -, -, -, -⟩ := idx_wgt t
  show (V m c main_v2 : S2048x2048.Idx → EReal) (((cfg0.win 3).blk t).view.emb (ix2 s k)) = _
  rw [V_main_v2]
  refine congrArg _ (funext fun a => Fin.ext ?_)
  match a with
  | ⟨0, _⟩ => show win0_3.index t (0 : Fin 2) * 256 + 1 * s.val = Q.val; omega
  | ⟨1, _⟩ => show win0_3.index t (1 : Fin 2) * 2048 + 1 * k.val = k.val; omega

/-- Row `s` of window 5's weight block is row `256 j + s` of the argument. -/
theorem blk_5 (c : Dev nD) (t : Fin cfg0.N) (s : Fin 256) (k : Fin 2048) (Q : Fin 2048)
    (hQ : Q.val = win0_16.index t (1 : Fin 2) * 256 + s.val) :
    (iblk m c 5 t : S256x2048.Idx → EReal) (ix2 s k) = (m ((c : Thread nD τ).loc main_arg5) : S2048x2048.Idx → EReal) (ix2 Q k) := by
  obtain ⟨-, -, e0, e1, -, -, -, -, -, -, -, -, -, -, -, -⟩ := idx_wgt t
  show (V m c main_v6 : S2048x2048.Idx → EReal) (((cfg0.win 5).blk t).view.emb (ix2 s k)) = _
  rw [V_main_v6]
  refine congrArg _ (funext fun a => Fin.ext ?_)
  match a with
  | ⟨0, _⟩ => show win0_5.index t (0 : Fin 2) * 256 + 1 * s.val = Q.val; omega
  | ⟨1, _⟩ => show win0_5.index t (1 : Fin 2) * 2048 + 1 * k.val = k.val; omega

/-- Row `s` of window 6's weight block is row `256 j + s` of the argument. -/
theorem blk_6 (c : Dev nD) (t : Fin cfg0.N) (s : Fin 256) (k : Fin 2048) (Q : Fin 2048)
    (hQ : Q.val = win0_16.index t (1 : Fin 2) * 256 + s.val) :
    (iblk m c 6 t : S256x2048.Idx → EReal) (ix2 s k) = (m ((c : Thread nD τ).loc main_arg6) : S2048x2048.Idx → EReal) (ix2 Q k) := by
  obtain ⟨-, -, -, -, e0, e1, -, -, -, -, -, -, -, -, -, -⟩ := idx_wgt t
  show (V m c main_v3 : S2048x2048.Idx → EReal) (((cfg0.win 6).blk t).view.emb (ix2 s k)) = _
  rw [V_main_v3]
  refine congrArg _ (funext fun a => Fin.ext ?_)
  match a with
  | ⟨0, _⟩ => show win0_6.index t (0 : Fin 2) * 256 + 1 * s.val = Q.val; omega
  | ⟨1, _⟩ => show win0_6.index t (1 : Fin 2) * 2048 + 1 * k.val = k.val; omega

/-- Row `s` of window 8's weight block is row `256 j + s` of the argument. -/
theorem blk_8 (c : Dev nD) (t : Fin cfg0.N) (s : Fin 256) (k : Fin 2048) (Q : Fin 2048)
    (hQ : Q.val = win0_16.index t (1 : Fin 2) * 256 + s.val) :
    (iblk m c 8 t : S256x2048.Idx → EReal) (ix2 s k) = (m ((c : Thread nD τ).loc main_arg8) : S2048x2048.Idx → EReal) (ix2 Q k) := by
  obtain ⟨-, -, -, -, -, -, e0, e1, -, -, -, -, -, -, -, -⟩ := idx_wgt t
  show (V m c main_v7 : S2048x2048.Idx → EReal) (((cfg0.win 8).blk t).view.emb (ix2 s k)) = _
  rw [V_main_v7]
  refine congrArg _ (funext fun a => Fin.ext ?_)
  match a with
  | ⟨0, _⟩ => show win0_8.index t (0 : Fin 2) * 256 + 1 * s.val = Q.val; omega
  | ⟨1, _⟩ => show win0_8.index t (1 : Fin 2) * 2048 + 1 * k.val = k.val; omega

/-- Row `s` of window 9's weight block is row `256 j + s` of the argument. -/
theorem blk_9 (c : Dev nD) (t : Fin cfg0.N) (s : Fin 256) (k : Fin 2048) (Q : Fin 2048)
    (hQ : Q.val = win0_16.index t (1 : Fin 2) * 256 + s.val) :
    (iblk m c 9 t : S256x2048.Idx → EReal) (ix2 s k) = (m ((c : Thread nD τ).loc main_arg9) : S2048x2048.Idx → EReal) (ix2 Q k) := by
  obtain ⟨-, -, -, -, -, -, -, -, e0, e1, -, -, -, -, -, -⟩ := idx_wgt t
  show (V m c main_v4 : S2048x2048.Idx → EReal) (((cfg0.win 9).blk t).view.emb (ix2 s k)) = _
  rw [V_main_v4]
  refine congrArg _ (funext fun a => Fin.ext ?_)
  match a with
  | ⟨0, _⟩ => show win0_9.index t (0 : Fin 2) * 256 + 1 * s.val = Q.val; omega
  | ⟨1, _⟩ => show win0_9.index t (1 : Fin 2) * 2048 + 1 * k.val = k.val; omega

/-- Row `s` of window 11's weight block is row `256 j + s` of the argument. -/
theorem blk_11 (c : Dev nD) (t : Fin cfg0.N) (s : Fin 256) (k : Fin 2048) (Q : Fin 2048)
    (hQ : Q.val = win0_16.index t (1 : Fin 2) * 256 + s.val) :
    (iblk m c 11 t : S256x2048.Idx → EReal) (ix2 s k) = (m ((c : Thread nD τ).loc main_arg11) : S2048x2048.Idx → EReal) (ix2 Q k) := by
  obtain ⟨-, -, -, -, -, -, -, -, -, -, e0, e1, -, -, -, -⟩ := idx_wgt t
  show (V m c main_v8 : S2048x2048.Idx → EReal) (((cfg0.win 11).blk t).view.emb (ix2 s k)) = _
  rw [V_main_v8]
  refine congrArg _ (funext fun a => Fin.ext ?_)
  match a with
  | ⟨0, _⟩ => show win0_11.index t (0 : Fin 2) * 256 + 1 * s.val = Q.val; omega
  | ⟨1, _⟩ => show win0_11.index t (1 : Fin 2) * 2048 + 1 * k.val = k.val; omega

/-- Row `s` of window 12's weight block is row `256 j + s` of the argument. -/
theorem blk_12 (c : Dev nD) (t : Fin cfg0.N) (s : Fin 256) (k : Fin 2048) (Q : Fin 2048)
    (hQ : Q.val = win0_16.index t (1 : Fin 2) * 256 + s.val) :
    (iblk m c 12 t : S256x2048.Idx → EReal) (ix2 s k) = (m ((c : Thread nD τ).loc main_arg12) : S2048x2048.Idx → EReal) (ix2 Q k) := by
  obtain ⟨-, -, -, -, -, -, -, -, -, -, -, -, e0, e1, -, -⟩ := idx_wgt t
  show (V m c main_v5 : S2048x2048.Idx → EReal) (((cfg0.win 12).blk t).view.emb (ix2 s k)) = _
  rw [V_main_v5]
  refine congrArg _ (funext fun a => Fin.ext ?_)
  match a with
  | ⟨0, _⟩ => show win0_12.index t (0 : Fin 2) * 256 + 1 * s.val = Q.val; omega
  | ⟨1, _⟩ => show win0_12.index t (1 : Fin 2) * 2048 + 1 * k.val = k.val; omega

/-- Row `s` of window 14's weight block is row `256 j + s` of the argument. -/
theorem blk_14 (c : Dev nD) (t : Fin cfg0.N) (s : Fin 256) (k : Fin 2048) (Q : Fin 2048)
    (hQ : Q.val = win0_16.index t (1 : Fin 2) * 256 + s.val) :
    (iblk m c 14 t : S256x2048.Idx → EReal) (ix2 s k) = (m ((c : Thread nD τ).loc main_arg14) : S2048x2048.Idx → EReal) (ix2 Q k) := by
  obtain ⟨-, -, -, -, -, -, -, -, -, -, -, -, -, -, e0, e1⟩ := idx_wgt t
  show (V m c main_v9 : S2048x2048.Idx → EReal) (((cfg0.win 14).blk t).view.emb (ix2 s k)) = _
  rw [V_main_v9]
  refine congrArg _ (funext fun a => Fin.ext ?_)
  match a with
  | ⟨0, _⟩ => show win0_14.index t (0 : Fin 2) * 256 + 1 * s.val = Q.val; omega
  | ⟨1, _⟩ => show win0_14.index t (1 : Fin 2) * 2048 + 1 * k.val = k.val; omega

/-- Entry `s` of window 4's bias slice is entry `256 j + s` of the argument. -/
theorem blk_4 (c : Dev nD) (t : Fin cfg0.N) (s : Fin 256) (Q : Fin 2048)
    (hQ : Q.val = win0_16.index t (1 : Fin 2) * 256 + s.val) :
    (iblk m c 4 t : S1x256.Idx → EReal) (ix2 (0 : Fin 1) s) = (m ((c : Thread nD τ).loc main_arg4) : S2048.Idx → EReal) (ix1 Q) := by
  obtain ⟨e0, e1, -, -, -, -, -, -⟩ := idx_bias t
  show (V m c main_v10 : S1x2048.Idx → EReal) (((cfg0.win 4).blk t).view.emb (ix2 (0 : Fin 1) s)) = _
  rw [V_main_v10]
  have hidx : ((cfg0.win 4).blk t).view.emb (ix2 (0 : Fin 1) s) = ix2 (0 : Fin 1) Q := funext fun a => Fin.ext (by
    match a with
    | ⟨0, _⟩ => show win0_4.index t (0 : Fin 2) * 1 + 1 * 0 = 0; omega
    | ⟨1, _⟩ => show win0_4.index t (1 : Fin 2) * 256 + 1 * s.val = Q.val; omega)
  rw [hidx]
  exact shapeCast_a_1a_apply _ shapeCasts_S2048_S1x2048 (0 : Fin 1) Q

/-- Entry `s` of window 7's bias slice is entry `256 j + s` of the argument. -/
theorem blk_7 (c : Dev nD) (t : Fin cfg0.N) (s : Fin 256) (Q : Fin 2048)
    (hQ : Q.val = win0_16.index t (1 : Fin 2) * 256 + s.val) :
    (iblk m c 7 t : S1x256.Idx → EReal) (ix2 (0 : Fin 1) s) = (m ((c : Thread nD τ).loc main_arg7) : S2048.Idx → EReal) (ix1 Q) := by
  obtain ⟨-, -, e0, e1, -, -, -, -⟩ := idx_bias t
  show (V m c main_v11 : S1x2048.Idx → EReal) (((cfg0.win 7).blk t).view.emb (ix2 (0 : Fin 1) s)) = _
  rw [V_main_v11]
  have hidx : ((cfg0.win 7).blk t).view.emb (ix2 (0 : Fin 1) s) = ix2 (0 : Fin 1) Q := funext fun a => Fin.ext (by
    match a with
    | ⟨0, _⟩ => show win0_7.index t (0 : Fin 2) * 1 + 1 * 0 = 0; omega
    | ⟨1, _⟩ => show win0_7.index t (1 : Fin 2) * 256 + 1 * s.val = Q.val; omega)
  rw [hidx]
  exact shapeCast_a_1a_apply _ shapeCasts_S2048_S1x2048 (0 : Fin 1) Q

/-- Entry `s` of window 10's bias slice is entry `256 j + s` of the argument. -/
theorem blk_10 (c : Dev nD) (t : Fin cfg0.N) (s : Fin 256) (Q : Fin 2048)
    (hQ : Q.val = win0_16.index t (1 : Fin 2) * 256 + s.val) :
    (iblk m c 10 t : S1x256.Idx → EReal) (ix2 (0 : Fin 1) s) = (m ((c : Thread nD τ).loc main_arg10) : S2048.Idx → EReal) (ix1 Q) := by
  obtain ⟨-, -, -, -, e0, e1, -, -⟩ := idx_bias t
  show (V m c main_v12 : S1x2048.Idx → EReal) (((cfg0.win 10).blk t).view.emb (ix2 (0 : Fin 1) s)) = _
  rw [V_main_v12]
  have hidx : ((cfg0.win 10).blk t).view.emb (ix2 (0 : Fin 1) s) = ix2 (0 : Fin 1) Q := funext fun a => Fin.ext (by
    match a with
    | ⟨0, _⟩ => show win0_10.index t (0 : Fin 2) * 1 + 1 * 0 = 0; omega
    | ⟨1, _⟩ => show win0_10.index t (1 : Fin 2) * 256 + 1 * s.val = Q.val; omega)
  rw [hidx]
  exact shapeCast_a_1a_apply _ shapeCasts_S2048_S1x2048 (0 : Fin 1) Q

/-- Entry `s` of window 13's bias slice is entry `256 j + s` of the argument. -/
theorem blk_13 (c : Dev nD) (t : Fin cfg0.N) (s : Fin 256) (Q : Fin 2048)
    (hQ : Q.val = win0_16.index t (1 : Fin 2) * 256 + s.val) :
    (iblk m c 13 t : S1x256.Idx → EReal) (ix2 (0 : Fin 1) s) = (m ((c : Thread nD τ).loc main_arg13) : S2048.Idx → EReal) (ix1 Q) := by
  obtain ⟨-, -, -, -, -, -, e0, e1⟩ := idx_bias t
  show (V m c main_v13 : S1x2048.Idx → EReal) (((cfg0.win 13).blk t).view.emb (ix2 (0 : Fin 1) s)) = _
  rw [V_main_v13]
  have hidx : ((cfg0.win 13).blk t).view.emb (ix2 (0 : Fin 1) s) = ix2 (0 : Fin 1) Q := funext fun a => Fin.ext (by
    match a with
    | ⟨0, _⟩ => show win0_13.index t (0 : Fin 2) * 1 + 1 * 0 = 0; omega
    | ⟨1, _⟩ => show win0_13.index t (1 : Fin 2) * 256 + 1 * s.val = Q.val; omega)
  rw [hidx]
  exact shapeCast_a_1a_apply _ shapeCasts_S2048_S1x2048 (0 : Fin 1) Q

end Cert.KernelIdeal.Blocks

end
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.KernelTile.lean ====
/-
  One tile of the kernel: what the body computes from the blocks it loads, entry by entry.

  The body loads a 512-sample tile of `x` and `h` (all 2048 inputs), the matching 512 × 256 tile of `c`, and for each of the
  four gates the 256 weight rows of the tile's units and the 1 × 256 slice of its bias.  Each gate's pre-activation is two
  products against transposed weights into a zero accumulator, added, plus the bias row broadcast down the samples;
  the stored values are the new cell state and the new hidden state of the tile.  Read at entry `(r, s)` of the tile they are
  the cell functions of `LstmSpec` at extents 512 × 2048, 256 × 2048, 512 × 256 — each contraction a sum over the 2048
  inputs of row `r` of the activation tile against row `s` of the weight tile.
-/
import proofs.«119314_j16071767621782_2_alg».proof.Proof.Gen.KernelIdeal.Skeleton
import proofs.«119314_j16071767621782_2_alg».proof.Proof.LstmSpec
import proofs.«119314_j16071767621782_2_alg».proof.Proof.LibDotNT
import Idealize.ShloMosaic.Lib.Pipeline.Value
import Idealize.ShloMosaic.Lib.ValueLayout

noncomputable section

open scoped BigOperators

namespace Cert.KernelIdeal.Tile

open Cert.KernelIdeal Cert.KernelIdeal.Gen Idealize.ShloMosaic Idealize.ShloMosaic.ValueIdx Cert.Lstm

/-! ## The contraction: both operands' second axes -/

theorem mm_l0 (j : S512x256.Idx) (q : dot_S512x2048_S256x2048_S512x256_1_1_0_0_n_n.contr.Idx) :
    (dot_S512x2048_S256x2048_S512x256_1_1_0_0_n_n.lhsIdx j q 0).val = (j 0).val := by
  unfold DotDims.lhsIdx
  rw [dif_neg (show ¬(0 : Fin S512x2048.rank) ∈ dot_S512x2048_S256x2048_S512x256_1_1_0_0_n_n.lhsBatch by decide),
    dif_pos (show (0 : Fin S512x2048.rank) ∈ dot_S512x2048_S256x2048_S512x256_1_1_0_0_n_n.lhsNonContracting by decide)]
  rfl

theorem mm_l1 (j : S512x256.Idx) (q : dot_S512x2048_S256x2048_S512x256_1_1_0_0_n_n.contr.Idx) :
    (dot_S512x2048_S256x2048_S512x256_1_1_0_0_n_n.lhsIdx j q 1).val = (q ⟨0, by decide⟩).val :=
  dot_S512x2048_S256x2048_S512x256_1_1_0_0_n_n.lhsIdx_val_of_single rfl j q

theorem mm_r0 (j : S512x256.Idx) (q : dot_S512x2048_S256x2048_S512x256_1_1_0_0_n_n.contr.Idx) :
    (dot_S512x2048_S256x2048_S512x256_1_1_0_0_n_n.rhsIdx j q 0).val = (j 1).val := by
  unfold DotDims.rhsIdx
  rw [dif_neg (show ¬(0 : Fin S256x2048.rank) ∈ dot_S512x2048_S256x2048_S512x256_1_1_0_0_n_n.rhsBatch by decide),
    dif_pos (show (0 : Fin S256x2048.rank) ∈ dot_S512x2048_S256x2048_S512x256_1_1_0_0_n_n.rhsNonContracting by decide)]
  rfl

theorem mm_r1 (j : S512x256.Idx) (q : dot_S512x2048_S256x2048_S512x256_1_1_0_0_n_n.contr.Idx) :
    (dot_S512x2048_S256x2048_S512x256_1_1_0_0_n_n.rhsIdx j q 1).val = (q ⟨0, by decide⟩).val :=
  dot_S512x2048_S256x2048_S512x256_1_1_0_0_n_n.rhsIdx_val_of_single rfl j q

/-- A product against the transposed weight tile into the zero accumulator, at `(r, s)`: row `r` against row `s`. -/
theorem matmul_at (l : FVec Ideal S512x2048 .bf16) (w : FVec Ideal S256x2048 .bf16) (r : Fin 512) (s : Fin 256) :
    matmul dot_S512x2048_S256x2048_S512x256_1_1_0_0_n_n none l w (constant (F := Ideal) S512x256 .f32 0x00000000#32) (ix2 r s)
      = dotRows (M := 512) (N := 256) (K := 2048) l w r s :=
  Cert.Lib.DotNT.matmul_zero_apply dot_S512x2048_S256x2048_S512x256_1_1_0_0_n_n rfl rfl mm_l0 mm_l1 mm_r0 mm_r1 none l w (ix2 r s)

/-- The bias slice broadcast down the 512 samples, at `(r, s)`: its entry `s`. -/
theorem biasRow_at (b : FVec Ideal S1x256 .f32) (r : Fin 512) (s : Fin 256) :
    broadcastTo S512x256 (shapeCast S1x256 b shapeCasts_S1x256_S1x256) broadcasts_S1x256_S512x256 (ix2 r s) = b (ix2 (0 : Fin 1) s) := by
  rw [shapeCast_self]
  exact broadcastTo_1b_ab_apply b broadcasts_S1x256_S512x256 r s

/-- A gate of the tile from its loaded blocks. -/
def tileGate (wx : FVec Ideal S256x2048 .bf16) (b : FVec Ideal S1x256 .f32) (wh : FVec Ideal S256x2048 .bf16) : Gate 256 2048 :=
  ⟨wx, fun s => b (ix2 (0 : Fin 1) s), wh⟩

/-- A gate's pre-activation as the body spells it (the two products added, then the bias row), at `(r, s)`. -/
theorem preact_at (x h : FVec Ideal S512x2048 .bf16) (wx wh : FVec Ideal S256x2048 .bf16) (b : FVec Ideal S1x256 .f32)
    (r : Fin 512) (s : Fin 256) :
    addf (addf (matmul dot_S512x2048_S256x2048_S512x256_1_1_0_0_n_n none x wx (constant (F := Ideal) S512x256 .f32 0x00000000#32))
        (matmul dot_S512x2048_S256x2048_S512x256_1_1_0_0_n_n none h wh (constant (F := Ideal) S512x256 .f32 0x00000000#32)))
      (broadcastTo S512x256 (shapeCast S1x256 b shapeCasts_S1x256_S1x256) broadcasts_S1x256_S512x256) (ix2 r s)
      = gatePre (M := 512) x h (tileGate wx b wh) r s := by
  rw [addf_apply, addf_apply, matmul_at, matmul_at, biasRow_at]
  rfl

/-! ## The payloads at an entry -/

/-- The forget gate's pre-activation of the tile. -/
theorem pay5_at (v0 v2 : FVec Ideal S512x2048 .bf16) (v5 v7 : FVec Ideal S256x2048 .bf16) (v12 : FVec Ideal S1x256 .f32)
    (r : Fin 512) (s : Fin 256) :
    k0_pay5 (F := Ideal) v0 v2 v5 v7 v12 (ix2 r s) = gatePre (M := 512) v0 v2 (tileGate v5 v12 v7) r s := by
  refine (preact_at (shapeCast S512x2048 v0 shapeCasts_S512x2048_S512x2048) (shapeCast S512x2048 v2 shapeCasts_S512x2048_S512x2048)
    (shapeCast S256x2048 v5 shapeCasts_S256x2048_S256x2048) (shapeCast S256x2048 v7 shapeCasts_S256x2048_S256x2048) v12 r s).trans ?_
  simp only [shapeCast_self]

/-- The input gate's pre-activation of the tile. -/
theorem pay6_at (v0 v2 : FVec Ideal S512x2048 .bf16) (v16 v18 : FVec Ideal S256x2048 .bf16) (v23 : FVec Ideal S1x256 .f32)
    (r : Fin 512) (s : Fin 256) :
    k0_pay6 (F := Ideal) v0 v2 v16 v18 v23 (ix2 r s) = gatePre (M := 512) v0 v2 (tileGate v16 v23 v18) r s := by
  refine (preact_at (shapeCast S512x2048 v0 shapeCasts_S512x2048_S512x2048) (shapeCast S512x2048 v2 shapeCasts_S512x2048_S512x2048)
    (shapeCast S256x2048 v16 shapeCasts_S256x2048_S256x2048) (shapeCast S256x2048 v18 shapeCasts_S256x2048_S256x2048) v23 r s).trans ?_
  simp only [shapeCast_self]

/-- The new cell state of the tile from the two rectified pre-activations handed to it, the old state and the candidate's
    blocks. -/
theorem pay1_at (v1 v3 : FVec Ideal S512x2048 .bf16) (v4 : FVec Ideal S512x256 .f32) (v15 v26 : FVec Ideal S512x256 .f32)
    (v38 v40 : FVec Ideal S256x2048 .bf16) (v45 : FVec Ideal S1x256 .f32) (r : Fin 512) (s : Fin 256) :
    k0_pay1 (F := Ideal) v1 v3 v4 v15 v26 v38 v40 v45 (ix2 r s)
      = max (v15 (ix2 r s)) zeroWord * v4 (ix2 r s)
        + max (v26 (ix2 r s)) zeroWord * Ideal.tanh (gatePre (M := 512) v1 v3 (tileGate v38 v45 v40) r s) := by
  have e := preact_at v1 v3 (shapeCast S256x2048 v38 shapeCasts_S256x2048_S256x2048)
    (shapeCast S256x2048 v40 shapeCasts_S256x2048_S256x2048) v45 r s
  refine (congrArg (fun z => max (v15 (ix2 r s)) zeroWord * v4 (ix2 r s) + max (v26 (ix2 r s)) zeroWord * Ideal.tanh z) e).trans ?_
  simp only [shapeCast_self]

/-- The new hidden state of the tile from the output gate's blocks and the new cell state. -/
theorem pay2_at (v1 v3 : FVec Ideal S512x2048 .bf16) (v4 : FVec Ideal S512x256 .f32) (v15 v26 : FVec Ideal S512x256 .f32)
    (v28 v30 : FVec Ideal S256x2048 .bf16) (v34 : FVec Ideal S1x256 .f32)
    (v38 v40 : FVec Ideal S256x2048 .bf16) (v45 : FVec Ideal S1x256 .f32) (r : Fin 512) (s : Fin 256) :
    k0_pay2 (F := Ideal) v1 v3 v4 v15 v26 v28 v30 (constant (F := Ideal) S512x256 .f32 0x00000000#32) v34 v38 v40 v45 (ix2 r s)
      = max (gatePre (M := 512) v1 v3 (tileGate v28 v34 v30) r s) zeroWord
        * Ideal.tanh (k0_pay1 (F := Ideal) v1 v3 v4 v15 v26 v38 v40 v45 (ix2 r s)) := by
  have e := preact_at v1 v3 v28 v30 v34 r s
  exact congrArg (fun z => max z zeroWord * Ideal.tanh (k0_pay1 (F := Ideal) v1 v3 v4 v15 v26 v38 v40 v45 (ix2 r s))) e

/-- What the body stores as the new cell state, at `(r, s)` of the tile, from the loaded blocks. -/
theorem cellTile_at (x0 x1 : FVec Ideal S512x2048 .bf16) (x2 : FVec Ideal S512x256 .f32)
    (x3 : FVec Ideal S256x2048 .bf16) (x4 : FVec Ideal S1x256 .f32) (x5 x6 : FVec Ideal S256x2048 .bf16) (x7 : FVec Ideal S1x256 .f32)
    (x8 x9 : FVec Ideal S256x2048 .bf16) (x10 : FVec Ideal S1x256 .f32) (x11 : FVec Ideal S256x2048 .bf16) (r : Fin 512) (s : Fin 256) :
    k0_pay1 (F := Ideal) (k0_pay3 x0) (k0_pay4 x1) x2 (k0_pay5 x0 x1 x3 x5 x4) (k0_pay6 x0 x1 x6 x8 x7) x9 x11 x10 (ix2 r s)
      = cellAt (M := 512) x0 x1 x2 (tileGate x3 x4 x5) (tileGate x6 x7 x8) (tileGate x9 x10 x11) r s := by
  rw [pay1_at, pay5_at, pay6_at]
  unfold k0_pay3 k0_pay4
  simp only [shapeCast_self]
  rfl

/-- What the body stores as the new hidden state, at `(r, s)` of the tile, from the loaded blocks. -/
theorem hidTile_at (x0 x1 : FVec Ideal S512x2048 .bf16) (x2 : FVec Ideal S512x256 .f32)
    (x3 : FVec Ideal S256x2048 .bf16) (x4 : FVec Ideal S1x256 .f32) (x5 x6 : FVec Ideal S256x2048 .bf16) (x7 : FVec Ideal S1x256 .f32)
    (x8 x9 : FVec Ideal S256x2048 .bf16) (x10 : FVec Ideal S1x256 .f32) (x11 x12 : FVec Ideal S256x2048 .bf16)
    (x13 : FVec Ideal S1x256 .f32) (x14 : FVec Ideal S256x2048 .bf16) (r : Fin 512) (s : Fin 256) :
    k0_pay2 (F := Ideal) (k0_pay3 x0) (k0_pay4 x1) x2 (k0_pay5 x0 x1 x3 x5 x4) (k0_pay6 x0 x1 x6 x8 x7) (k0_pay7 x12) (k0_pay8 x14)
        (constant (F := Ideal) S512x256 .f32 0x00000000#32) x13 x9 x11 x10 (ix2 r s)
      = hidAt (M := 512) x0 x1 x2 (tileGate x3 x4 x5) (tileGate x6 x7 x8) (tileGate x9 x10 x11) (tileGate x12 x13 x14) r s := by
  rw [pay2_at, cellTile_at]
  unfold k0_pay3 k0_pay4 k0_pay7 k0_pay8
  simp only [shapeCast_self]
  rfl

end Cert.KernelIdeal.Tile

end
-- ==== Proof.KernelArrays.lean ====
/-
  From tiles to arrays: what the kernel's two result arrays hold after the run.

  Point `(i, j)` of the 8 × 8 grid writes back the `(i, j)` tile, 512 samples by 256 units, of each result.  By `KernelTile` a
  tile's entry `(r, s)` is the cell function of the blocks the point was handed, and since that function depends only on row
  `r` of the activation blocks, row `s` of the weight blocks and entry `s` of the bias slices — which by `KernelBlocks` are row
  `512 i + r`, row `256 j + s` and entry `256 j + s` of the arguments — it is the cell function of the WHOLE arrays at
  `(512 i + r, 256 j + s)`.  Index `(a, b)` of a result lies in the tile at `(a / 512, b / 256)`, so the 64 tiles cover each result
  array, and the arrays end at `hidNew` and `cellNew` of the arguments.
-/
import proofs.«119314_j16071767621782_2_alg».proof.Proof.KernelBlocks
import proofs.«119314_j16071767621782_2_alg».proof.Proof.KernelTile

noncomputable section

open scoped BigOperators

namespace Cert.KernelIdeal.Arrays

open Cert.KernelIdeal Cert.KernelIdeal.Gen Cert.KernelIdeal.Tile Cert.KernelIdeal.Blocks
open Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-! ## What a point writes back is its tile of the whole-array function -/

set_option maxHeartbeats 400000 in
/-- Point `t` writes back, to the second result's array, tile `t` of the new cell state of the arguments. -/
theorem flushed_cell (c : Dev nD) (t : Fin cfg0.N) :
    (dats m 0 c).flushed 16 t = ((cfg0.win 16).blk t).view.read (Elt Ideal) (cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [Cert.KernelIdeal.Value.flushed16]
  unfold out0_16
  rw [View.canon_unit_zero hz]
  simp only [View.ld_unit_zero (S := S512x2048) hz, View.ld_unit_zero (S := S512x256) hz, View.ld_unit_zero (S := S256x2048) hz,
    View.ld_unit_zero (S := S1x256) hz]
  funext y
  obtain ⟨r, s, rfl⟩ : ∃ (r : Fin 512) (s : Fin 256), y = ix2 r s := ⟨y 0, y 1, eq_ix2 y⟩
  obtain ⟨-, -, -, -, -, -, o0, o1, hI, hJ⟩ := idx_tile t
  have hr := r.isLt
  have hs := s.isLt
  obtain ⟨P, hP⟩ : ∃ P : Fin 4096, P.val = win0_16.index t (0 : Fin 2) * 512 + r.val := ⟨⟨_, by omega⟩, rfl⟩
  obtain ⟨Q, hQ⟩ : ∃ Q : Fin 2048, Q.val = win0_16.index t (1 : Fin 2) * 256 + s.val := ⟨⟨_, by omega⟩, rfl⟩
  have hemb : ((cfg0.win 16).blk t).view.emb (ix2 r s) = ix2 P Q := funext fun a => Fin.ext (by
    match a with
    | ⟨0, _⟩ => show win0_16.index t (0 : Fin 2) * 512 + 1 * r.val = P.val; omega
    | ⟨1, _⟩ => show win0_16.index t (1 : Fin 2) * 256 + 1 * s.val = Q.val; omega)
  show k0_pay1 (F := Ideal) (k0_pay3 (iblk m c 0 t)) (k0_pay4 (iblk m c 1 t)) (iblk m c 2 t) (k0_pay5 (iblk m c 0 t) (iblk m c 1 t) (iblk m c 3 t) (iblk m c 5 t) (iblk m c 4 t))
      (k0_pay6 (iblk m c 0 t) (iblk m c 1 t) (iblk m c 6 t) (iblk m c 8 t) (iblk m c 7 t)) (iblk m c 9 t) (iblk m c 11 t) (iblk m c 10 t) (ix2 r s)
    = (cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (((cfg0.win 16).blk t).view.emb (ix2 r s))
  rw [hemb, cellNew_ix2]
  refine (cellTile_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r s).trans ?_
  exact cellAt_congr (M := 512) (M' := 4096) (N := 256) (N' := 2048) (K := 2048)
    (x := (iblk m c 0 t)) (h := (iblk m c 1 t)) (x' := m ((c : Thread nD τ).loc main_arg0)) (h' := m ((c : Thread nD τ).loc main_arg1)) (c := (iblk m c 2 t)) (c' := m ((c : Thread nD τ).loc main_arg2))
    (gf := (tileGate (iblk m c 3 t) (iblk m c 4 t) (iblk m c 5 t))) (gi := (tileGate (iblk m c 6 t) (iblk m c 7 t) (iblk m c 8 t))) (gc := (tileGate (iblk m c 9 t) (iblk m c 10 t) (iblk m c 11 t)))
    (gf' := (gateOf (m ((c : Thread nD τ).loc main_arg3)) (m ((c : Thread nD τ).loc main_arg4)) (m ((c : Thread nD τ).loc main_arg5)))) (gi' := (gateOf (m ((c : Thread nD τ).loc main_arg6)) (m ((c : Thread nD τ).loc main_arg7)) (m ((c : Thread nD τ).loc main_arg8)))) (gc' := (gateOf (m ((c : Thread nD τ).loc main_arg9)) (m ((c : Thread nD τ).loc main_arg10)) (m ((c : Thread nD τ).loc main_arg11)))) (p := r) (p' := P) (q := s) (q' := Q)
    (fun k => blk_0 m c t r k P hP) (fun k => blk_1 m c t r k P hP) (blk_2 m c t r s P Q hP hQ)
    ⟨fun k => blk_3 m c t s k Q hQ, blk_4 m c t s Q hQ, fun k => blk_5 m c t s k Q hQ⟩
    ⟨fun k => blk_6 m c t s k Q hQ, blk_7 m c t s Q hQ, fun k => blk_8 m c t s k Q hQ⟩
    ⟨fun k => blk_9 m c t s k Q hQ, blk_10 m c t s Q hQ, fun k => blk_11 m c t s k Q hQ⟩

set_option maxHeartbeats 400000 in
/-- Point `t` writes back, to the first result's array, tile `t` of the new hidden state of the arguments. -/
theorem flushed_hid (c : Dev nD) (t : Fin cfg0.N) :
    (dats m 0 c).flushed 15 t = ((cfg0.win 15).blk t).view.read (Elt Ideal) (hidNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [Cert.KernelIdeal.Value.flushed15]
  unfold out0_15
  rw [View.canon_unit_zero hz]
  simp only [View.ld_unit_zero (S := S512x2048) hz, View.ld_unit_zero (S := S512x256) hz, View.ld_unit_zero (S := S256x2048) hz,
    View.ld_unit_zero (S := S1x256) hz]
  funext y
  obtain ⟨r, s, rfl⟩ : ∃ (r : Fin 512) (s : Fin 256), y = ix2 r s := ⟨y 0, y 1, eq_ix2 y⟩
  obtain ⟨-, -, -, -, -, -, o0, o1, hI, hJ⟩ := idx_tile t
  have hr := r.isLt
  have hs := s.isLt
  obtain ⟨P, hP⟩ : ∃ P : Fin 4096, P.val = win0_16.index t (0 : Fin 2) * 512 + r.val := ⟨⟨_, by omega⟩, rfl⟩
  obtain ⟨Q, hQ⟩ : ∃ Q : Fin 2048, Q.val = win0_16.index t (1 : Fin 2) * 256 + s.val := ⟨⟨_, by omega⟩, rfl⟩
  have hemb : ((cfg0.win 15).blk t).view.emb (ix2 r s) = ix2 P Q := funext fun a => Fin.ext (by
    match a with
    | ⟨0, _⟩ => show win0_15.index t (0 : Fin 2) * 512 + 1 * r.val = P.val; omega
    | ⟨1, _⟩ => show win0_15.index t (1 : Fin 2) * 256 + 1 * s.val = Q.val; omega)
  show k0_pay2 (F := Ideal) (k0_pay3 (iblk m c 0 t)) (k0_pay4 (iblk m c 1 t)) (iblk m c 2 t) (k0_pay5 (iblk m c 0 t) (iblk m c 1 t) (iblk m c 3 t) (iblk m c 5 t) (iblk m c 4 t))
      (k0_pay6 (iblk m c 0 t) (iblk m c 1 t) (iblk m c 6 t) (iblk m c 8 t) (iblk m c 7 t)) (k0_pay7 (iblk m c 12 t)) (k0_pay8 (iblk m c 14 t))
      (constant (F := Ideal) S512x256 .f32 0x00000000#32) (iblk m c 13 t) (iblk m c 9 t) (iblk m c 11 t) (iblk m c 10 t) (ix2 r s)
    = (hidNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (((cfg0.win 15).blk t).view.emb (ix2 r s))
  rw [hemb, hidNew_ix2]
  refine (hidTile_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r s).trans ?_
  exact hidAt_congr (M := 512) (M' := 4096) (N := 256) (N' := 2048) (K := 2048)
    (x := (iblk m c 0 t)) (h := (iblk m c 1 t)) (x' := m ((c : Thread nD τ).loc main_arg0)) (h' := m ((c : Thread nD τ).loc main_arg1)) (c := (iblk m c 2 t)) (c' := m ((c : Thread nD τ).loc main_arg2))
    (gf := (tileGate (iblk m c 3 t) (iblk m c 4 t) (iblk m c 5 t))) (gi := (tileGate (iblk m c 6 t) (iblk m c 7 t) (iblk m c 8 t))) (gc := (tileGate (iblk m c 9 t) (iblk m c 10 t) (iblk m c 11 t)))
    (gf' := (gateOf (m ((c : Thread nD τ).loc main_arg3)) (m ((c : Thread nD τ).loc main_arg4)) (m ((c : Thread nD τ).loc main_arg5)))) (gi' := (gateOf (m ((c : Thread nD τ).loc main_arg6)) (m ((c : Thread nD τ).loc main_arg7)) (m ((c : Thread nD τ).loc main_arg8)))) (gc' := (gateOf (m ((c : Thread nD τ).loc main_arg9)) (m ((c : Thread nD τ).loc main_arg10)) (m ((c : Thread nD τ).loc main_arg11))))
    (go := (tileGate (iblk m c 12 t) (iblk m c 13 t) (iblk m c 14 t))) (go' := (gateOf (m ((c : Thread nD τ).loc main_arg12)) (m ((c : Thread nD τ).loc main_arg13)) (m ((c : Thread nD τ).loc main_arg14)))) (p := r) (p' := P) (q := s) (q' := Q)
    (fun k => blk_0 m c t r k P hP) (fun k => blk_1 m c t r k P hP) (blk_2 m c t r s P Q hP hQ)
    ⟨fun k => blk_3 m c t s k Q hQ, blk_4 m c t s Q hQ, fun k => blk_5 m c t s k Q hQ⟩
    ⟨fun k => blk_6 m c t s k Q hQ, blk_7 m c t s Q hQ, fun k => blk_8 m c t s k Q hQ⟩
    ⟨fun k => blk_9 m c t s k Q hQ, blk_10 m c t s Q hQ, fun k => blk_11 m c t s k Q hQ⟩
    ⟨fun k => blk_12 m c t s k Q hQ, blk_13 m c t s Q hQ, fun k => blk_14 m c t s k Q hQ⟩

/-! ## The 64 tiles cover each result array -/

/-- An index is in point `t`'s tile of window 15 iff each coordinate is in the tile's range. -/
theorem mem_blk15 (t : Fin cfg0.N) (i : S4096x2048.Idx) :
    i ∈ ((cfg0.win 15).blk t).view.set
      ↔ ∀ a : Fin 2, win0_15.index t a * S512x256.size a ≤ (i a).val ∧ (i a).val < win0_15.index t a * S512x256.size a + S512x256.size a := by
  show i ∈ ((View.whole main_v14_0).slice (win0_15.rect t)).set ↔ _
  rw [View.set_slice_whole, Rect.mem_set_unit]
  exact Iff.rfl

/-- Index `(a, b)` lies in the tile at position `(a / 512, b / 256)`. -/
theorem cover15 (i : S4096x2048.Idx) : ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  obtain ⟨-, -, -, -, -, -, o0, o1, -⟩ := idx_tile t
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- An index is in point `t`'s tile of window 16 iff each coordinate is in the tile's range. -/
theorem mem_blk16 (t : Fin cfg0.N) (i : S4096x2048.Idx) :
    i ∈ ((cfg0.win 16).blk t).view.set
      ↔ ∀ a : Fin 2, win0_16.index t a * S512x256.size a ≤ (i a).val ∧ (i a).val < win0_16.index t a * S512x256.size a + S512x256.size a := by
  show i ∈ ((View.whole main_v14_1).slice (win0_16.rect t)).set ↔ _
  rw [View.set_slice_whole, Rect.mem_set_unit]
  exact Iff.rfl

/-- Index `(a, b)` lies in the tile at position `(a / 512, b / 256)`. -/
theorem cover16 (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  obtain ⟨-, -, -, -, -, -, o0, o1, -⟩ := idx_tile t
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-- The first result's array after the run: the new hidden state of the arguments. -/
theorem final_hid (c : Dev nD) : (dats m 0 c).arrAt 15 cfg0.N = hidNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 15 (hidNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (fun t _ => flushed_hid m c t) cover15

/-- The second result's array after the run: the new cell state of the arguments. -/
theorem final_cell (c : Dev nD) : (dats m 0 c).arrAt 16 cfg0.N = cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 16 (cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun t _ => flushed_cell m c t) cover16

/-! ## The run, read -/

/-- Every weakly fair execution of the kernel's program terminates with the two results at the new hidden and cell
    states of the argument arrays, the arguments unchanged. -/
theorem run : θ_run defs (onTc (τ := τ) (main (F := Ideal))) ⟨m, fun _ => 0, ρ⟩ fun r => ∀ c : Dev nD,
      r.2.mem ((c : Thread nD τ).loc main_v14_0) = hidNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v14_1) = cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_hid m c), (h c).2.1.trans (final_cell m c), (h c).2.2⟩)
    (Cert.KernelIdeal.Value.run_blocks m ρ)

end Cert.KernelIdeal.Arrays

end
-- ==== Proof.RefCell.lean ====
/-
  The reference, entry by entry.

  The reference computes each gate's pre-activation on the whole arrays as  x · wxᵀ + b + h · whᵀ : a transpose of the
  weight matrix, a product contracting the activation's second axis with the transposed matrix's first, the bias
  vector laid out as a row and repeated down the samples, and two additions.  At entry `(p, q)` the product is the sum
  over the 2048 inputs of row `p` of the activation against row `q` of the untransposed weights, and the repeated bias is its
  entry `q`; the three terms are those of `LstmSpec.gatePre` with the bias added second, which is the same sum.  The
  rectifier is a maximum with a zero constant, and the two hyperbolic tangents are the ideal instance's.  So the two result
  arrays are `cellNew` and `hidNew` of the fifteen arguments.
-/
import proofs.«119314_j16071767621782_2_alg».proof.Proof.Gen.ReferenceIdeal.Read
import proofs.«119314_j16071767621782_2_alg».proof.Proof.LstmSpec

noncomputable section

open scoped BigOperators

namespace Cert.ReferenceIdeal.RefValue

open Cert.ReferenceIdeal Cert.ReferenceIdeal.Read Idealize.ShloMosaic Idealize.ShloMosaic.ValueIdx Cert.Lstm

/-- The forget gate's pre-activation at `(p, q)`. -/
theorem pre_forget (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (p : Fin 4096) (q : Fin 2048) :
    val_main_v7 (F := Ideal) x0 x1 x3 x4 x5 (ix2 p q) = gatePre (M := 4096) x0 x1 (gateOf x3 x4 x5) p q := by
  rw [val_main_v7_apply, val_main_v4_apply, val_main_v1_apply, val_main_v3_apply, val_main_v2_apply, val_main_v6_apply]
  simp only [val_main_v0_apply, val_main_v5_apply, Ideal.addf_def]
  refine Eq.trans ?_ (gatePre_bias_second x0 x1 (gateOf x3 x4 x5) p q)
  refine congrArg₂ (· + ·) (congrArg₂ (· + ·) (Finset.sum_congr rfl fun k _ => ?_) ?_) (Finset.sum_congr rfl fun k _ => ?_)
  · exact congrArg₂ (· * ·) (congrArg x0 (funext fun a => Fin.ext (by match a with | ⟨0, _⟩ => rfl | ⟨1, _⟩ => rfl)))
      (congrArg x3 (funext fun a => Fin.ext (by match a with | ⟨0, _⟩ => rfl | ⟨1, _⟩ => rfl)))
  · exact congrArg x4 (funext fun a => Fin.ext (by match a with | ⟨0, _⟩ => rfl))
  · exact congrArg₂ (· * ·) (congrArg x1 (funext fun a => Fin.ext (by match a with | ⟨0, _⟩ => rfl | ⟨1, _⟩ => rfl)))
      (congrArg x5 (funext fun a => Fin.ext (by match a with | ⟨0, _⟩ => rfl | ⟨1, _⟩ => rfl)))

/-- The forget gate rectified, at `(p, q)`. -/
theorem relu_forget (x0 x1 : (⟨S4096x2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (p : Fin 4096) (q : Fin 2048) :
    val_main_v8 (F := Ideal) x0 x1 x3 x4 x5 (ix2 p q) = max (gatePre (M := 4096) x0 x1 (gateOf x3 x4 x5) p q) zeroWord := by
  rw [val_main_v8_apply, val_main_call0_v0_apply, val_main_call0_cst_apply, pre_forget]
  rfl

/-- The input gate's pre-activation at `(p, q)`. -/
theorem pre_input (x0 x1 : (⟨S4096x2048, .f32⟩ : BufTy).Contents (Elt Ideal)) (x6 : (⟨S2048x2048, .f32⟩ : BufTy).Contents (Elt Ideal)) (x7 : (⟨S2048, .f32⟩ : BufTy).Contents (Elt Ideal)) (x8 : (⟨S2048x2048, .f32⟩ : BufTy).Contents (Elt Ideal)) (p : Fin 4096) (q : Fin 2048) :
    val_main_v16 (F := Ideal) x0 x1 x6 x7 x8 (ix2 p q) = gatePre (M := 4096) x0 x1 (gateOf x6 x7 x8) p q := by
  rw [val_main_v16_apply, val_main_v13_apply, val_main_v10_apply, val_main_v12_apply, val_main_v11_apply, val_main_v15_apply]
  simp only [val_main_v9_apply, val_main_v14_apply, Ideal.addf_def]
  refine Eq.trans ?_ (gatePre_bias_second x0 x1 (gateOf x6 x7 x8) p q)
  refine congrArg₂ (· + ·) (congrArg₂ (· + ·) (Finset.sum_congr rfl fun k _ => ?_) ?_) (Finset.sum_congr rfl fun k _ => ?_)
  · exact congrArg₂ (· * ·) (congrArg x0 (funext fun a => Fin.ext (by match a with | ⟨0, _⟩ => rfl | ⟨1, _⟩ => rfl)))
      (congrArg x6 (funext fun a => Fin.ext (by match a with | ⟨0, _⟩ => rfl | ⟨1, _⟩ => rfl)))
  · exact congrArg x7 (funext fun a => Fin.ext (by match a with | ⟨0, _⟩ => rfl))
  · exact congrArg₂ (· * ·) (congrArg x1 (funext fun a => Fin.ext (by match a with | ⟨0, _⟩ => rfl | ⟨1, _⟩ => rfl)))
      (congrArg x8 (funext fun a => Fin.ext (by match a with | ⟨0, _⟩ => rfl | ⟨1, _⟩ => rfl)))

/-- The input gate rectified, at `(p, q)`. -/
theorem relu_input (x0 x1 : (⟨S4096x2048, .f32⟩ : BufTy).Contents (Elt Ideal)) (x6 : (⟨S2048x2048, .f32⟩ : BufTy).Contents (Elt Ideal)) (x7 : (⟨S2048, .f32⟩ : BufTy).Contents (Elt Ideal)) (x8 : (⟨S2048x2048, .f32⟩ : BufTy).Contents (Elt Ideal)) (p : Fin 4096) (q : Fin 2048) :
    val_main_v17 (F := Ideal) x0 x1 x6 x7 x8 (ix2 p q) = max (gatePre (M := 4096) x0 x1 (gateOf x6 x7 x8) p q) zeroWord := by
  rw [val_main_v17_apply, val_main_call1_v0_apply, val_main_call1_cst_apply, pre_input]
  rfl

/-- The output gate's pre-activation at `(p, q)`. -/
theorem pre_output (x0 x1 : (⟨S4096x2048, .f32⟩ : BufTy).Contents (Elt Ideal)) (x12 : (⟨S2048x2048, .f32⟩ : BufTy).Contents (Elt Ideal)) (x13 : (⟨S2048, .f32⟩ : BufTy).Contents (Elt Ideal)) (x14 : (⟨S2048x2048, .f32⟩ : BufTy).Contents (Elt Ideal)) (p : Fin 4096) (q : Fin 2048) :
    val_main_v25 (F := Ideal) x0 x1 x12 x13 x14 (ix2 p q) = gatePre (M := 4096) x0 x1 (gateOf x12 x13 x14) p q := by
  rw [val_main_v25_apply, val_main_v22_apply, val_main_v19_apply, val_main_v21_apply, val_main_v20_apply, val_main_v24_apply]
  simp only [val_main_v18_apply, val_main_v23_apply, Ideal.addf_def]
  refine Eq.trans ?_ (gatePre_bias_second x0 x1 (gateOf x12 x13 x14) p q)
  refine congrArg₂ (· + ·) (congrArg₂ (· + ·) (Finset.sum_congr rfl fun k _ => ?_) ?_) (Finset.sum_congr rfl fun k _ => ?_)
  · exact congrArg₂ (· * ·) (congrArg x0 (funext fun a => Fin.ext (by match a with | ⟨0, _⟩ => rfl | ⟨1, _⟩ => rfl)))
      (congrArg x12 (funext fun a => Fin.ext (by match a with | ⟨0, _⟩ => rfl | ⟨1, _⟩ => rfl)))
  · exact congrArg x13 (funext fun a => Fin.ext (by match a with | ⟨0, _⟩ => rfl))
  · exact congrArg₂ (· * ·) (congrArg x1 (funext fun a => Fin.ext (by match a with | ⟨0, _⟩ => rfl | ⟨1, _⟩ => rfl)))
      (congrArg x14 (funext fun a => Fin.ext (by match a with | ⟨0, _⟩ => rfl | ⟨1, _⟩ => rfl)))

/-- The output gate rectified, at `(p, q)`. -/
theorem relu_output (x0 x1 : (⟨S4096x2048, .f32⟩ : BufTy).Contents (Elt Ideal)) (x12 : (⟨S2048x2048, .f32⟩ : BufTy).Contents (Elt Ideal)) (x13 : (⟨S2048, .f32⟩ : BufTy).Contents (Elt Ideal)) (x14 : (⟨S2048x2048, .f32⟩ : BufTy).Contents (Elt Ideal)) (p : Fin 4096) (q : Fin 2048) :
    val_main_v26 (F := Ideal) x0 x1 x12 x13 x14 (ix2 p q) = max (gatePre (M := 4096) x0 x1 (gateOf x12 x13 x14) p q) zeroWord := by
  rw [val_main_v26_apply, val_main_call2_v0_apply, val_main_call2_cst_apply, pre_output]
  rfl

/-- The candidate gate's pre-activation at `(p, q)`. -/
theorem pre_cand (x0 x1 : (⟨S4096x2048, .f32⟩ : BufTy).Contents (Elt Ideal)) (x9 : (⟨S2048x2048, .f32⟩ : BufTy).Contents (Elt Ideal)) (x10 : (⟨S2048, .f32⟩ : BufTy).Contents (Elt Ideal)) (x11 : (⟨S2048x2048, .f32⟩ : BufTy).Contents (Elt Ideal)) (p : Fin 4096) (q : Fin 2048) :
    val_main_v34 (F := Ideal) x0 x1 x9 x10 x11 (ix2 p q) = gatePre (M := 4096) x0 x1 (gateOf x9 x10 x11) p q := by
  rw [val_main_v34_apply, val_main_v31_apply, val_main_v28_apply, val_main_v30_apply, val_main_v29_apply, val_main_v33_apply]
  simp only [val_main_v27_apply, val_main_v32_apply, Ideal.addf_def]
  refine Eq.trans ?_ (gatePre_bias_second x0 x1 (gateOf x9 x10 x11) p q)
  refine congrArg₂ (· + ·) (congrArg₂ (· + ·) (Finset.sum_congr rfl fun k _ => ?_) ?_) (Finset.sum_congr rfl fun k _ => ?_)
  · exact congrArg₂ (· * ·) (congrArg x0 (funext fun a => Fin.ext (by match a with | ⟨0, _⟩ => rfl | ⟨1, _⟩ => rfl)))
      (congrArg x9 (funext fun a => Fin.ext (by match a with | ⟨0, _⟩ => rfl | ⟨1, _⟩ => rfl)))
  · exact congrArg x10 (funext fun a => Fin.ext (by match a with | ⟨0, _⟩ => rfl))
  · exact congrArg₂ (· * ·) (congrArg x1 (funext fun a => Fin.ext (by match a with | ⟨0, _⟩ => rfl | ⟨1, _⟩ => rfl)))
      (congrArg x11 (funext fun a => Fin.ext (by match a with | ⟨0, _⟩ => rfl | ⟨1, _⟩ => rfl)))

/-- The new cell state the reference computes, at `(p, q)`. -/
theorem cell_at (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 x6 : (⟨S2048x2048, .f32⟩ : BufTy).Contents (Elt Ideal)) (x7 : (⟨S2048, .f32⟩ : BufTy).Contents (Elt Ideal)) (x8 x9 : (⟨S2048x2048, .f32⟩ : BufTy).Contents (Elt Ideal)) (x10 : (⟨S2048, .f32⟩ : BufTy).Contents (Elt Ideal)) (x11 : (⟨S2048x2048, .f32⟩ : BufTy).Contents (Elt Ideal)) (p : Fin 4096) (q : Fin 2048) :
    val_main_v38 (F := Ideal) x0 x1 x2 x3 x4 x5 x6 x7 x8 x9 x10 x11 (ix2 p q)
      = cellAt (M := 4096) x0 x1 x2 (gateOf x3 x4 x5) (gateOf x6 x7 x8) (gateOf x9 x10 x11) p q := by
  rw [val_main_v38_apply, val_main_v36_apply, val_main_v37_apply, val_main_v35_apply, relu_forget, relu_input, pre_cand]
  rfl

/-- The new hidden state the reference computes, at `(p, q)`. -/
theorem hid_at (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 x6 : (⟨S2048x2048, .f32⟩ : BufTy).Contents (Elt Ideal)) (x7 : (⟨S2048, .f32⟩ : BufTy).Contents (Elt Ideal)) (x8 x9 : (⟨S2048x2048, .f32⟩ : BufTy).Contents (Elt Ideal)) (x10 : (⟨S2048, .f32⟩ : BufTy).Contents (Elt Ideal)) (x11 x12 : (⟨S2048x2048, .f32⟩ : BufTy).Contents (Elt Ideal)) (x13 : (⟨S2048, .f32⟩ : BufTy).Contents (Elt Ideal)) (x14 : (⟨S2048x2048, .f32⟩ : BufTy).Contents (Elt Ideal)) (p : Fin 4096) (q : Fin 2048) :
    val_main_v40 (F := Ideal) x0 x1 x2 x3 x4 x5 x6 x7 x8 x9 x10 x11 x12 x13 x14 (ix2 p q)
      = hidAt (M := 4096) x0 x1 x2 (gateOf x3 x4 x5) (gateOf x6 x7 x8) (gateOf x9 x10 x11) (gateOf x12 x13 x14) p q := by
  rw [val_main_v40_apply, val_main_v39_apply, relu_output, cell_at]
  rfl

/-- The reference's second result is the new cell state of its arguments. -/
theorem cell_eq (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 x6 : (⟨S2048x2048, .f32⟩ : BufTy).Contents (Elt Ideal)) (x7 : (⟨S2048, .f32⟩ : BufTy).Contents (Elt Ideal)) (x8 x9 : (⟨S2048x2048, .f32⟩ : BufTy).Contents (Elt Ideal)) (x10 : (⟨S2048, .f32⟩ : BufTy).Contents (Elt Ideal)) (x11 : (⟨S2048x2048, .f32⟩ : BufTy).Contents (Elt Ideal)) :
    val_main_v38 (F := Ideal) x0 x1 x2 x3 x4 x5 x6 x7 x8 x9 x10 x11 = cellNew x0 x1 x2 x3 x4 x5 x6 x7 x8 x9 x10 x11 := by
  funext j
  obtain ⟨p, q, rfl⟩ : ∃ (p : Fin 4096) (q : Fin 2048), j = ix2 p q := ⟨j 0, j 1, eq_ix2 j⟩
  exact cell_at x0 x1 x2 x3 x4 x5 x6 x7 x8 x9 x10 x11 p q

/-- The reference's first result is the new hidden state of its arguments. -/
theorem hid_eq (x0 x1 x2 : (⟨S4096x2048, .f32⟩ : BufTy).Contents (Elt Ideal)) (x3 : (⟨S2048x2048, .f32⟩ : BufTy).Contents (Elt Ideal)) (x4 : (⟨S2048, .f32⟩ : BufTy).Contents (Elt Ideal)) (x5 x6 : (⟨S2048x2048, .f32⟩ : BufTy).Contents (Elt Ideal)) (x7 : (⟨S2048, .f32⟩ : BufTy).Contents (Elt Ideal)) (x8 x9 : (⟨S2048x2048, .f32⟩ : BufTy).Contents (Elt Ideal)) (x10 : (⟨S2048, .f32⟩ : BufTy).Contents (Elt Ideal)) (x11 x12 : (⟨S2048x2048, .f32⟩ : BufTy).Contents (Elt Ideal)) (x13 : (⟨S2048, .f32⟩ : BufTy).Contents (Elt Ideal)) (x14 : (⟨S2048x2048, .f32⟩ : BufTy).Contents (Elt Ideal)) :
    val_main_v40 (F := Ideal) x0 x1 x2 x3 x4 x5 x6 x7 x8 x9 x10 x11 x12 x13 x14
      = hidNew x0 x1 x2 x3 x4 x5 x6 x7 x8 x9 x10 x11 x12 x13 x14 := by
  funext j
  obtain ⟨p, q, rfl⟩ : ∃ (p : Fin 4096) (q : Fin 2048), j = ix2 p q := ⟨j 0, j 1, eq_ix2 j⟩
  exact hid_at x0 x1 x2 x3 x4 x5 x6 x7 x8 x9 x10 x11 x12 x13 x14 p q

end Cert.ReferenceIdeal.RefValue

end
-- ==== Proof.lean ====
/-
  A rectifier-gated LSTM cell fused into one kernel, against its array-level reference, equal on the extended reals.

  Both programs take activations `x`, `h`, a cell state `c`, and for each of the forget, input, candidate and output gates
  two weight matrices and a bias, and return the new hidden state and the new cell state
      c' = max(f, 0) · c + max(i, 0) · tanh(g),      h' = max(o, 0) · tanh(c'),
  where a gate's pre-activation at sample `p`, unit `q` is  x[p,·]·wx[q,·] + h[p,·]·wh[q,·] + b[q]  (`LstmSpec`).

  The kernel walks an 8 × 8 grid of 512-sample by 256-unit tiles; at a tile it contracts the activations' rows with the
  weight rows of the tile's units, adds the two products and then the bias, and stores the tile of `c'` and of `h'`
  (`KernelTile`); the tiles cover the result arrays and each tile's entry is the whole-array function at the tile's position
  (`KernelArrays`).  The reference transposes each weight matrix, multiplies, adds the bias BEFORE the second product, and
  applies the same rectifier and hyperbolic tangents (`RefCell`).  The two spellings of a pre-activation are the same
  three extended reals added in a different grouping, and addition on `[-∞, +∞]` is commutative and associative without
  exception, so the results agree entry by entry for ALL inputs; the hypothesis that the inputs are finite is not used.
  The change of float format in front of the kernel's products is the identity on extended reals.

  The programs' termination and the preservation of their arguments are the generated frame certificates and the
  reference's generated run; the kernel's idealization rewrote nothing, so there is nothing to preserve.
-/
import proofs.«119314_j16071767621782_2_alg».proof.Defs
import proofs.«119314_j16071767621782_2_alg».proof.Proof.Gen.Kernel
import proofs.«119314_j16071767621782_2_alg».proof.Proof.Gen.Kernel.Skeleton
import proofs.«119314_j16071767621782_2_alg».proof.Proof.Gen.Kernel.Launch
import proofs.«119314_j16071767621782_2_alg».proof.Proof.Gen.Kernel.Points
import proofs.«119314_j16071767621782_2_alg».proof.Proof.Gen.Kernel.Frame
import proofs.«119314_j16071767621782_2_alg».proof.Proof.Gen.KernelIdeal
import proofs.«119314_j16071767621782_2_alg».proof.Proof.Gen.KernelIdeal.Skeleton
import proofs.«119314_j16071767621782_2_alg».proof.Proof.Gen.KernelIdeal.Launch
import proofs.«119314_j16071767621782_2_alg».proof.Proof.Gen.KernelIdeal.Points
import proofs.«119314_j16071767621782_2_alg».proof.Proof.Gen.KernelIdeal.Frame
import proofs.«119314_j16071767621782_2_alg».proof.Proof.Gen.ReferenceIdeal
import proofs.«119314_j16071767621782_2_alg».proof.Proof.Gen.Pre_finite_inputs
import proofs.«119314_j16071767621782_2_alg».proof.Proof.Gen.KernelIdeal.Value
import proofs.«119314_j16071767621782_2_alg».proof.Proof.Gen.ReferenceIdeal.Run
import proofs.«119314_j16071767621782_2_alg».proof.Proof.Gen.ReferenceIdeal.Read
import proofs.«119314_j16071767621782_2_alg».proof.Proof.KernelArrays
import proofs.«119314_j16071767621782_2_alg».proof.Proof.RefCell
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten when the kernel was read on the extended reals. -/
theorem preserves : Cert.preserves_Kernel_KernelIdeal := trivial

/-- From memories agreeing on the fifteen arguments both programs end with the new hidden state and the new cell state
    of those arguments: the kernel's run tile by tile, the reference's operation by operation, one pair of functions. -/
theorem algebraic : Cert.algebraic_KernelIdeal_ReferenceIdeal := by
  intro m ρ m' ρ' _ hagree
  refine ⟨fun c => Cert.Lstm.hidNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Lstm.cellNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v40_eq, Cert.ReferenceIdeal.RefValue.hid_eq,
      a0, a1, a2, a3, a4, a5, a6, a7, a8, a9, a10, a11, a12, a13, a14]
  · obtain ⟨a0, a1, a2, a3, a4, a5, a6, a7, a8, a9, a10, a11, -⟩ := hagree c
    rw [Cert.ReferenceIdeal.Read.val_main_v38_eq, Cert.ReferenceIdeal.RefValue.cell_eq,
      a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
